-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S16x64 : Shape := ⟨2, ![16, 64]⟩
abbrev S16 : Shape := ⟨1, ![16]⟩
abbrev S2x1600000 : Shape := ⟨2, ![2, 1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x64 .f32) (main_arg8 : FVec F S16 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64x64 .f32) (main_arg5 : FVec F S64 .f32) (main_arg6 : FVec F S64x64 .f32) (main_arg7 : FVec F S16x64 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_v33

def fn {F : FTy → Type} [FloatOps F] (main_arg0 : FVec F S100000x64 .f32) (main_arg1 : FVec F S64x64 .f32) (main_arg2 : FVec F S64 .f32) (main_arg3 : FVec F S64x64 .f32) (main_arg4 : FVec F S64x64 .f32) (main_arg5 : FVec F S64 .f32) (main_arg6 : FVec F S64x64 .f32) (main_arg7 : FVec F S16x64 .f32) (main_arg8 : FVec F S16 .f32) (main_arg9 : IVec S2x1600000 32) (main_arg10 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S100000x64 : Shape := ⟨2, ![100000, 64]⟩
abbrev S64x64 : Shape := ⟨2, ![64, 64]⟩
abbrev S64 : Shape := ⟨1, ![64]⟩
abbrev S16x64 : Shape := ⟨2, ![16, 64]⟩
abbrev S16 : Shape := ⟨1, ![16]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x64 : Shape := ⟨2, ![5000, 64]⟩
abbrev S512x64 : Shape := ⟨2, ![512, 64]⟩
abbrev S512 : Shape := ⟨1, ![512]⟩
abbrev S512x1 : Shape := ⟨2, ![512, 1]⟩
abbrev S1x16 : Shape := ⟨2, ![1, 16]⟩
abbrev S512x16 : Shape := ⟨2, ![512, 16]⟩
abbrev S64x16 : Shape := ⟨2, ![64, 16]⟩

abbrev nBuf : Space → Nat
  | .hbm => 87
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S16x64, .f32⟩
  | .hbm, ⟨8, _⟩ => ⟨S16, .f32⟩
  | .hbm, ⟨9, _⟩ => ⟨S2x1600000, .i32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S_, .f32⟩
  | .hbm, ⟨70, _⟩ => ⟨S512x64, .f32⟩
  | .hbm, ⟨71, _⟩ => ⟨S100000x1, .i32⟩
  | .hbm, ⟨72, _⟩ => ⟨S512x64, .f32⟩
  | .hbm, ⟨73, _⟩ => ⟨S_, .f32⟩
  | .hbm, ⟨74, _⟩ => ⟨S100000, .f32⟩
  | .hbm, ⟨75, _⟩ => ⟨S_, .f32⟩
  | .hbm, ⟨76, _⟩ => ⟨S512, .f32⟩
  | .hbm, ⟨77, _⟩ => ⟨S100000x1, .i32⟩
  | .hbm, ⟨78, _⟩ => ⟨S512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S512x1, .f32⟩
  | .hbm, ⟨83, _⟩ => ⟨S512x64, .f32⟩
  | .hbm, ⟨84, _⟩ => ⟨S512x64, .f32⟩
  | .hbm, ⟨85, _⟩ => ⟨S1x16, .f32⟩
  | .hbm, ⟨86, _⟩ => ⟨S512x16, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S512x64, .f32⟩
  | .local _ .vmem, ⟨19, _⟩ => ⟨S16x64, .f32⟩
  | .local _ .vmem, ⟨20, _⟩ => ⟨S1x16, .f32⟩
  | .local _ .vmem, ⟨21, _⟩ => ⟨S512x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_cst_12 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S16x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S16_S1x16 : S16.ShapeCasts S1x16
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  reduces_S512x16_S512 : S512x16.Reduces [1] S512
  shapeCasts_S512_S512x1 : S512.ShapeCasts S512x1
  broadcasts_S512x1_S512x16 : S512x1.Broadcasts S512x16
  inb_S512x16_S512x16_0_0 : ∀ a, (![0, 0] : Fin 2 → Nat) a + S512x16.size a ≤ S512x16.size a
  h_S512x16 : 0 < S512x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x16_S512x16_1_0_0_1_n_n_wf : DotDims.WF S512x64 S64x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S512x64.size a
  hwx2_0 : ∀ i : grid2.Coords, EltTy.bits .f32 = 32 ∨ (Rect.block (s := S512x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x64.size a ≤ S16x64.size a
  hwx2_1 : ∀ i : grid2.Coords, EltTy.bits .f32 = 32 ∨ (Rect.block (s := S16x64) S16x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x16.size a ≤ S512x16.size a
  hwx2_3 : ∀ i : grid2.Coords, EltTy.bits .f32 = 32 ∨ (Rect.block (s := S512x16) S512x16.size (cc2_transform_3 i) (hinb2_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S512x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S16x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S512x16.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S16x64 : Shape := ⟨2, ![16, 64]⟩
abbrev S16 : Shape := ⟨1, ![16]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S64x16 : Shape := ⟨2, ![64, 16]⟩
abbrev S512x16 : Shape := ⟨2, ![512, 16]⟩
abbrev S1x16 : Shape := ⟨2, ![1, 16]⟩

abbrev nBuf : Space → Nat
  | .hbm => 127
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S16x64, .f32⟩
  | .hbm, ⟨8, _⟩ => ⟨S16, .f32⟩
  | .hbm, ⟨9, _⟩ => ⟨S2x1600000, .i32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S1x1600000, .i32⟩
  | .hbm, ⟨52, _⟩ => ⟨S1600000, .i32⟩
  | .hbm, ⟨53, _⟩ => ⟨S1x1600000, .i32⟩
  | .hbm, ⟨54, _⟩ => ⟨S1600000, .i32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S64x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S512x64, .f32⟩
  | .hbm, ⟨93, _⟩ => ⟨S100000x1, .i32⟩
  | .hbm, ⟨94, _⟩ => ⟨S512x64, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S512, .f32⟩
  | .hbm, ⟨99, _⟩ => ⟨S100000x1, .i32⟩
  | .hbm, ⟨100, _⟩ => ⟨S512, .f32⟩
  | .hbm, ⟨101, _⟩ => ⟨S_, .f32⟩
  | .hbm, ⟨102, _⟩ => ⟨S512, .f32⟩
  | .hbm, ⟨103, _⟩ => ⟨S512, .f32⟩
  | .hbm, ⟨104, _⟩ => ⟨S512x1, .f32⟩
  | .hbm, ⟨105, _⟩ => ⟨S512x64, .f32⟩
  | .hbm, ⟨106, _⟩ => ⟨S512x64, .f32⟩
  | .hbm, ⟨107, _⟩ => ⟨S64x16, .f32⟩
  | .hbm, ⟨108, _⟩ => ⟨S512x16, .f32⟩
  | .hbm, ⟨109, _⟩ => ⟨S1x16, .f32⟩
  | .hbm, ⟨110, _⟩ => ⟨S512x16, .f32⟩
  | .hbm, ⟨111, _⟩ => ⟨S512x16, .f32⟩
  | .hbm, ⟨112, _⟩ => ⟨S_, .f32⟩
  | .hbm, ⟨113, _⟩ => ⟨S512, .f32⟩
  | .hbm, ⟨114, _⟩ => ⟨S_, .f32⟩
  | .hbm, ⟨115, _⟩ => ⟨S512, .f32⟩
  | .hbm, ⟨116, _⟩ => ⟨S512, .f32⟩
  | .hbm, ⟨117, _⟩ => ⟨S512x1, .f32⟩
  | .hbm, ⟨118, _⟩ => ⟨S512x16, .f32⟩
  | .hbm, ⟨119, _⟩ => ⟨S512x16, .f32⟩
  | .hbm, ⟨120, _⟩ => ⟨S512x16, .f32⟩
  | .hbm, ⟨121, _⟩ => ⟨S_, .f32⟩
  | .hbm, ⟨122, _⟩ => ⟨S512, .f32⟩
  | .hbm, ⟨123, _⟩ => ⟨S512x1, .f32⟩
  | .hbm, ⟨124, _⟩ => ⟨S512x1, .f32⟩
  | .hbm, ⟨125, _⟩ => ⟨S512x16, .f32⟩
  | .hbm, ⟨126, _⟩ => ⟨S512x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call2_cst : Ref sig .tc := ⟨.hbm, 112, rfl⟩
abbrev main_call2_v0 : Ref sig .tc := ⟨.hbm, 113, rfl⟩
abbrev main_call2_cst_0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_cst_1 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_v81 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S16x64_S64x16_1_0 : S16x64.Transposes [1, 0] S64x16
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  reducesTo_S512x16_S512_d1 : S512x16.ReducesTo [1] S512
  h_S_ : 0 < S_.numel
  bcast_S512x1_S512x16_0_1 : S512x1.BroadcastsInDim S512x16 (![0, 1] : Fin 2 → Fin S512x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x16_S512x16_1_0_0_1_n_n_wf : DotDims.WF S512x64 S64x16 S512x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf

class Facts : Prop extends Facts₀ where

variable [Facts]
-- ==== Proof.KRun.lean ====
/-
  The idealized kernel's run with its RESULT in the post.  @main is six segments — a stretch of host operations, then a pallas_call,
  three times over — and the launch theorem for such a chain gives, at the end, every unscoped buffer at the last boundary's contents
  (the fold `W6` of the frame).  The frame keeps of this only the argument arrays; here the same launch is read at the result buffer
  too: after every weakly fair execution the result array holds `W6` at that buffer, and the arguments are unchanged.
-/
import proofs.«141392_j42563125904013_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's contents
    and the argument arrays as launched. -/
theorem run_val : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.KRun

end
-- ==== Proof.Layer.lean ====
/-
  The arithmetic of the three kernel bodies, read entry by entry on the extended reals.

  A SAGE layer's entry `(r, q)` is  max( (Σₖ aggr[r,k]·Wl[q,k] + b[q]) + Σₖ x[r,k]·Wr[q,k], 0 ):  the body's two matrix products into
  zero accumulators are plain sums over the contracted axis, a change of float format is the identity, the transposed weight read at
  `(k, q)` is the weight at `(q, k)`, and the bias row is spread over the rows of the block.
  The head's entry `(p, q)` is log-softmax of graph `p`'s 16 logits at `q`:  l[q] − M − log Σₖ exp(l[k] − M), with M the row's maximum
  (a lane reduction from −∞) and l[q] = Σₖ pooled[p,k]·W[q,k] + b[q].
-/
import proofs.«141392_j42563125904013_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Layer
open Cert.KernelIdeal Cert.KernelIdeal.Gen Idealize.ShloMosaic Idealize.ShloMosaic.ValueIdx

abbrev zeroE : EReal := Ideal.ofBits .f32 0x00000000#32

def sageRow (a x : Fin 64 → EReal) (wl wr : S64x64.Idx → EReal) (b : EReal) (q : Fin 64) : EReal :=
  max (((∑ k : Fin 64, a k * wl (ix2 q k)) + b) + ∑ k : Fin 64, x k * wr (ix2 q k)) zeroE

theorem tr64 {φ : FTy} (w : FVec Ideal S64x64 φ) (k q : Fin 64) :
    transpose S64x64 [1, 0] w transposes_S64x64_p1_0_S64x64 (ix2 k q) = w (ix2 q k) :=
  transpose_apply [1, 0] w transposes_S64x64_p1_0_S64x64 (ix2 k q) (ix2 q k) (fun b => match b with
    | ⟨0, _⟩ => rfl
    | ⟨1, _⟩ => rfl)

theorem bc5000 (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => match a with
    | ⟨0, _⟩ => rfl
    | ⟨1, _⟩ => rfl)

theorem mm5000_l0 (i : S5000x64.Idx) (c : dot_S5000x64_S64x64_S5000x64_1_0_0_1_n_n.contr.Idx) : (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm5000_r1 (i : S5000x64.Idx) (c : dot_S5000x64_S64x64_S5000x64_1_0_0_1_n_n.contr.Idx) : (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- The block's matrix product into a zero accumulator, read at an entry: the sum over the contracted axis. -/
theorem mm5000 (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  show FloatOps.matmul dot_S5000x64_S64x64_S5000x64_1_0_0_1_n_n none l r (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm5000_l0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact mm5000_r1 _ _)
  rw [el, er]

/-- The first layer's body, read at entry `(p, q)` of its block: the layer's entry from row `p` of the two row blocks. -/
theorem pay0_at (x a : Vec Ideal S5000x64 .f32) (wl wr : Vec Ideal S64x64 .f32) (b : Vec Ideal S1x64 .f32) (p : Fin 5000) (q : Fin 64) :
    k0_pay1 (F := Ideal) x a wl wr b (ix2 p q)
      = sageRow (fun k => a (ix2 p k)) (fun k => x (ix2 p k)) wl wr (b (ix2 0 q)) q := by
  unfold k0_pay1 sageRow
  simp only [maximumf_apply, addf_apply, broadcast_apply, mm5000, truncf_apply, shapeCast_self, bc5000]
  refine congrArg₂ max (congrArg₂ (· + ·) (congrArg₂ (· + ·) (Finset.sum_congr rfl fun k _ => congrArg₂ (· * ·) rfl ?_) rfl) (Finset.sum_congr rfl fun k _ => congrArg₂ (· * ·) rfl ?_)) rfl
  · exact tr64 (φ := .bf16) (truncf .bf16 wl bitsLt_bf16_f32) k q
  · exact tr64 (φ := .bf16) (truncf .bf16 wr bitsLt_bf16_f32) k q

/-- The second layer's body, read at an entry of its block: the same function of its blocks. -/
theorem pay1_at (x a : Vec Ideal S5000x64 .f32) (wl wr : Vec Ideal S64x64 .f32) (b : Vec Ideal S1x64 .f32) (p : Fin 5000) (q : Fin 64) :
    k1_pay1 (F := Ideal) x a wl wr b (ix2 p q)
      = sageRow (fun k => a (ix2 p k)) (fun k => x (ix2 p k)) wl wr (b (ix2 0 q)) q := by
  unfold k1_pay1 sageRow
  simp only [maximumf_apply, addf_apply, broadcast_apply, mm5000, truncf_apply, shapeCast_self, bc5000]
  refine congrArg₂ max (congrArg₂ (· + ·) (congrArg₂ (· + ·) (Finset.sum_congr rfl fun k _ => congrArg₂ (· * ·) rfl ?_) rfl) (Finset.sum_congr rfl fun k _ => congrArg₂ (· * ·) rfl ?_)) rfl
  · exact tr64 (φ := .bf16) (truncf .bf16 wl bitsLt_bf16_f32) k q
  · exact tr64 (φ := .bf16) (truncf .bf16 wr bitsLt_bf16_f32) k q

/-! ## The classifier head -/

abbrev ninfE : EReal := Ideal.ofBits .f32 0xFF800000#32

/-- A graph's logit for class `q`: its pooled row against row `q` of the weights, plus the bias. -/
def logit (pr : Fin 64 → EReal) (w : S16x64.Idx → EReal) (b : S1x16.Idx → EReal) (q : Fin 16) : EReal :=
  (∑ k : Fin 64, pr k * w (ix2 q k)) + b (ix2 0 q)

/-- The largest of a row of 16 logits (from -∞). -/
def rowMax (l : Fin 16 → EReal) : EReal := (Finset.univ : Finset (Fin 16)).fold max ninfE l

/-- log-softmax of a row of logits at `q`: shift by the row's maximum, then subtract the log of the sum of exponentials. -/
def lsmRow (l : Fin 16 → EReal) (q : Fin 16) : EReal :=
  (l q - rowMax l) - Ideal.log (∑ k : Fin 16, Ideal.exp (l k - rowMax l))

theorem tr16 {φ : FTy} (w : FVec Ideal S16x64 φ) (k : Fin 64) (q : Fin 16) :
    transpose S64x16 [1, 0] w transposes_S16x64_p1_0_S64x16 (ix2 k q) = w (ix2 q k) :=
  transpose_apply [1, 0] w transposes_S16x64_p1_0_S64x16 (ix2 k q) (ix2 q k) (fun b => match b with
    | ⟨0, _⟩ => rfl
    | ⟨1, _⟩ => rfl)

theorem bc512 (b : FVec Ideal S1x16 .f32) (p : Fin 512) (q : Fin 16) :
    broadcastTo S512x16 b broadcasts_S1x16_S512x16 (ix2 p q) = b (ix2 0 q) :=
  broadcastTo_apply b broadcasts_S1x16_S512x16 (ix2 p q) (ix2 0 q) (fun a => match a with
    | ⟨0, _⟩ => rfl
    | ⟨1, _⟩ => rfl)

/-- A per-row column, spread over the row's 16 entries, read at `(p, q)`. -/
theorem col512 (v : FVec Ideal S512 .f32) (p : Fin 512) (q : Fin 16) :
    broadcastTo S512x16 (shapeCast S512x1 v shapeCasts_S512_S512x1) broadcasts_S512x1_S512x16 (ix2 p q) = v (ix1 p) := by
  rw [broadcastTo_apply _ broadcasts_S512x1_S512x16 (ix2 p q) (ix2 p 0) (fun a => match a with
    | ⟨0, _⟩ => rfl
    | ⟨1, _⟩ => rfl)]
  exact shapeCast_apply v shapeCasts_S512_S512x1 (ix2 p 0) (ix1 p) (by
    rw [Shape.rowMajor_val_one, Shape.rowMajor_val_two]; show (p : ℕ) = p * 1 + 0; omega)

theorem mm512_l0 (i : S512x16.Idx) (c : dot_S512x64_S64x16_S512x16_1_0_0_1_n_n.contr.Idx) : (dot_S512x64_S64x16_S512x16_1_0_0_1_n_n.lhsIdx i c 0).val = (i 0).val := by
  unfold DotDims.lhsIdx
  rw [dif_neg (show ¬(0 : Fin S512x64.rank) ∈ dot_S512x64_S64x16_S512x16_1_0_0_1_n_n.lhsBatch by decide), dif_pos (show (0 : Fin S512x64.rank) ∈ dot_S512x64_S64x16_S512x16_1_0_0_1_n_n.lhsNonContracting by decide)]
  rfl
theorem mm512_r1 (i : S512x16.Idx) (c : dot_S512x64_S64x16_S512x16_1_0_0_1_n_n.contr.Idx) : (dot_S512x64_S64x16_S512x16_1_0_0_1_n_n.rhsIdx i c 1).val = (i 1).val := by
  unfold DotDims.rhsIdx
  rw [dif_neg (show ¬(1 : Fin S64x16.rank) ∈ dot_S512x64_S64x16_S512x16_1_0_0_1_n_n.rhsBatch by decide), dif_pos (show (1 : Fin S64x16.rank) ∈ dot_S512x64_S64x16_S512x16_1_0_0_1_n_n.rhsNonContracting by decide)]
  rfl
/-- The block's matrix product into a zero accumulator, read at an entry: the sum over the contracted axis. -/
theorem mm512 (l : FVec Ideal S512x64 .bf16) (r : FVec Ideal S64x16 .bf16) (p : Fin 512) (q : Fin 16) :
    matmul dot_S512x64_S64x16_S512x16_1_0_0_1_n_n none l r (constant S512x16 .f32 0x00000000#32) (ix2 p q)
      = ∑ k : Fin 64, l (ix2 p k) * r (ix2 k q) := by
  show FloatOps.matmul dot_S512x64_S64x16_S512x16_1_0_0_1_n_n none l r (constant S512x16 .f32 0x00000000#32) (ix2 p q) = _
  rw [Ideal.matmul_constant_zero_apply, ← Equiv.sum_comp (contrEquiv1 dot_S512x64_S64x16_S512x16_1_0_0_1_n_n 64 rfl rfl).symm]
  refine Finset.sum_congr rfl fun k _ => ?_
  have hk := contrEquiv1_symm_val dot_S512x64_S64x16_S512x16_1_0_0_1_n_n 64 rfl rfl k
  have el : dot_S512x64_S64x16_S512x16_1_0_0_1_n_n.lhsIdx (ix2 p q) ((contrEquiv1 dot_S512x64_S64x16_S512x16_1_0_0_1_n_n 64 rfl rfl).symm k) = ix2 p k := funext fun a => Fin.ext (by
    match a with
    | ⟨0, _⟩ => exact mm512_l0 _ _
    | ⟨1, _⟩ => exact (dot_S512x64_S64x16_S512x16_1_0_0_1_n_n.lhsIdx_val_of_single rfl _ _).trans hk)
  have er : dot_S512x64_S64x16_S512x16_1_0_0_1_n_n.rhsIdx (ix2 p q) ((contrEquiv1 dot_S512x64_S64x16_S512x16_1_0_0_1_n_n 64 rfl rfl).symm k) = ix2 k q := funext fun a => Fin.ext (by
    match a with
    | ⟨0, _⟩ => exact (dot_S512x64_S64x16_S512x16_1_0_0_1_n_n.rhsIdx_val_of_single rfl _ _).trans hk
    | ⟨1, _⟩ => exact mm512_r1 _ _)
  rw [el, er]

theorem lift512 (h : S512x16.Reduces [1] S512) (p : Fin 512) (k : Fin (S512x16.size 1)) :
    h.lift (ix1 p) k = ix2 p (⟨k.val, k.isLt⟩ : Fin 16) := by
  funext c; apply Fin.ext
  fin_cases c <;> rfl

/-- A row's maximum as the lane reduction takes it. -/
theorem max_at (L : FVec Ideal S512x16 .f32) (hφ : FKind.Formats FTy.f32)
    (hacc : (0xFF800000#32 : BitVec 32) = 0xFF800000#32) (p : Fin 512) :
    multiReduction .maximumf [1] S512 L 0xFF800000#32 reduces_S512x16_S512 hφ hacc (ix1 p)
      = rowMax fun k => L (ix2 p k) := by
  refine (Ideal.multiReduction_maximumf_single L 0xFF800000#32 reduces_S512x16_S512 hφ hacc (ix1 p)).trans ?_
  have hf : (L ∘ reduces_S512x16_S512.lift (ix1 p)) = fun k : Fin 16 => L (ix2 p k) :=
    funext fun k => congrArg L (lift512 _ p k)
  exact congrArg (fun f => Finset.fold max ninfE f (Finset.univ : Finset (Fin 16))) hf

/-- A row's sum as the lane reduction takes it. -/
theorem sum_at (E : FVec Ideal S512x16 .f32) (hφ : FKind.Formats FTy.f32)
    (hacc : (0x00000000#32 : BitVec 32) = 0x00000000#32) (p : Fin 512) :
    multiReduction .add [1] S512 E 0x00000000#32 reduces_S512x16_S512 hφ hacc (ix1 p)
      = ∑ k : Fin 16, E (ix2 p k) := by
  refine (Ideal.multiReduction_add_single E 0x00000000#32 reduces_S512x16_S512 hφ hacc (ix1 p)).trans ?_
  exact Finset.sum_congr rfl fun k _ => congrArg E (lift512 _ p k)

/-- The log of a per-row column, spread over the row, read at `(p, q)`. -/
theorem logcol512 (v : FVec Ideal S512 .f32) (p : Fin 512) (q : Fin 16) :
    broadcastTo S512x16 (log (shapeCast S512x1 v shapeCasts_S512_S512x1)) broadcasts_S512x1_S512x16 (ix2 p q) = Ideal.log (v (ix1 p)) := by
  rw [broadcastTo_apply _ broadcasts_S512x1_S512x16 (ix2 p q) (ix2 p 0) (fun a => match a with
    | ⟨0, _⟩ => rfl
    | ⟨1, _⟩ => rfl)]
  show Ideal.log (shapeCast S512x1 v shapeCasts_S512_S512x1 (ix2 p 0)) = _
  rw [shapeCast_apply v shapeCasts_S512_S512x1 (ix2 p 0) (ix1 p) (by
    rw [Shape.rowMajor_val_one, Shape.rowMajor_val_two]; show (p : ℕ) = p * 1 + 0; omega)]

/-- The logits the head's body forms from its blocks, at `(p, q)`. -/
theorem logits_at (pl : Vec Ideal S512x64 .f32) (w : Vec Ideal S16x64 .f32) (b : Vec Ideal S1x16 .f32) (p : Fin 512) (q : Fin 16) :
    (addf (F := Ideal) (matmul (F := Ideal) dot_S512x64_S64x16_S512x16_1_0_0_1_n_n none
            (truncf FTy.bf16 (shapeCast S512x64 pl shapeCasts_S512x64_S512x64) bitsLt_bf16_f32)
            (transpose S64x16 [1, 0] (truncf FTy.bf16 w bitsLt_bf16_f32) transposes_S16x64_p1_0_S64x16)
            (constant (F := Ideal) S512x16 FTy.f32 0x00000000#32))
          (broadcastTo S512x16 (shapeCast S1x16 b shapeCasts_S1x16_S1x16) broadcasts_S1x16_S512x16) : FVec Ideal S512x16 .f32) (ix2 p q)
      = logit (fun k => pl (ix2 p k)) w b q := by
  unfold logit
  simp only [addf_apply, mm512, truncf_apply, shapeCast_self, bc512]
  refine congrArg₂ (· + ·) (Finset.sum_congr rfl fun k _ => congrArg₂ (· * ·) rfl ?_) rfl
  exact tr16 (φ := .bf16) (truncf .bf16 w bitsLt_bf16_f32) k q

/-- The head's epilogue over any block of logits `L`, read at `(p, q)`: log-softmax of row `p` at `q`. -/
theorem lsm_of (L : FVec Ideal S512x16 .f32) (hφ : FKind.Formats FTy.f32)
    (hm : (0xFF800000#32 : BitVec 32) = 0xFF800000#32) (hs : (0x00000000#32 : BitVec 32) = 0x00000000#32) (p : Fin 512) (q : Fin 16) :
    subf (subf L (broadcastTo S512x16 (shapeCast S512x1 (multiReduction .maximumf [1] S512 L 0xFF800000#32 reduces_S512x16_S512 hφ hm) shapeCasts_S512_S512x1) broadcasts_S512x1_S512x16))
      (broadcastTo S512x16 (log (shapeCast S512x1 (multiReduction .add [1] S512
        (exp (subf L (broadcastTo S512x16 (shapeCast S512x1 (multiReduction .maximumf [1] S512 L 0xFF800000#32 reduces_S512x16_S512 hφ hm) shapeCasts_S512_S512x1) broadcasts_S512x1_S512x16)))
        0x00000000#32 reduces_S512x16_S512 hφ hs) shapeCasts_S512_S512x1)) broadcasts_S512x1_S512x16) (ix2 p q)
      = lsmRow (fun k => L (ix2 p k)) q := by
  unfold lsmRow
  simp only [subf_apply, col512, logcol512]
  rw [max_at, sum_at]
  refine congrArg₂ (· - ·) rfl (congrArg Ideal.log (Finset.sum_congr rfl fun k _ => ?_))
  show Ideal.exp (L (ix2 p k) - broadcastTo S512x16 (shapeCast S512x1 (multiReduction .maximumf [1] S512 L 0xFF800000#32 reduces_S512x16_S512 hφ hm) shapeCasts_S512_S512x1) broadcasts_S512x1_S512x16 (ix2 p k)) = _
  rw [col512, max_at]

/-- The head's body, read at entry `(p, q)`: log-softmax of graph `p`'s logits at class `q`. -/
theorem pay2_at (pl : Vec Ideal S512x64 .f32) (w : Vec Ideal S16x64 .f32) (b : Vec Ideal S1x16 .f32) (p : Fin 512) (q : Fin 16) :
    k2_pay1 (F := Ideal) pl w b (ix2 p q)
      = lsmRow (logit (fun k => pl (ix2 p k)) w b) q := by
  unfold k2_pay1
  refine (lsm_of _ _ _ _ p q).trans ?_
  exact congrArg (fun l => lsmRow l q) (funext fun k => logits_at pl w b p k)

/-! ## The layers over whole arrays -/

/-- Entry `(r, q)` of a SAGE layer over the whole node arrays. -/
def sageAt (x a : S100000x64.Idx → EReal) (wl wr : S64x64.Idx → EReal) (b : S1x64.Idx → EReal) (r : Fin 100000) (q : Fin 64) : EReal :=
  sageRow (fun k => a (ix2 r k)) (fun k => x (ix2 r k)) wl wr (b (ix2 0 q)) q

/-- A SAGE layer: every node's new row from its own row `x` and its neighbourhood mean `a`. -/
def sage (x a : S100000x64.Idx → EReal) (wl wr : S64x64.Idx → EReal) (b : S1x64.Idx → EReal) : S100000x64.Idx → EReal :=
  fun i => sageAt x a wl wr b ⟨(i 0).val, (i 0).isLt⟩ ⟨(i 1).val, (i 1).isLt⟩

/-- The classifier head: log-softmax of every graph's logits. -/
def head (pl : S512x64.Idx → EReal) (w : S16x64.Idx → EReal) (b : S1x16.Idx → EReal) : S512x16.Idx → EReal :=
  fun i => lsmRow (logit (fun k => pl (ix2 (⟨(i 0).val, (i 0).isLt⟩ : Fin 512) k)) w b) ⟨(i 1).val, (i 1).isLt⟩

end Cert.KernelIdeal.Layer
end
-- ==== Proof.Blocks.lean ====
/-
  From blocks to arrays.  Each pallas_call's output array, after the region, as ONE function of the arrays the region was entered
  with.  The two layer calls tile 100000 rows in twenty blocks of 5000: point `t` stages rows 5000·t … 5000·t+4999 of the node rows and
  of the neighbourhood means, the two weight matrices and the bias row whole, and writes back the same rows of the layer; every row is in
  exactly the block of `r / 5000`.  The head has one grid point and every window whole.
-/
import proofs.«141392_j42563125904013_1_alg».proof.Proof.Gen.KernelIdeal.Frame
import proofs.«141392_j42563125904013_1_alg».proof.Proof.Layer

set_option maxRecDepth 16384

noncomputable section

namespace Cert.KernelIdeal.Blocks

open Cert.KernelIdeal Cert.KernelIdeal.Gen Cert.KernelIdeal.Layer Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer -/

/-- The printed index maps over the grid: the row windows (the node rows, the means, the output) sit at block `t` of the rows; the
    weights and the bias are whole at every point. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer over the arrays as the region finds them: rows `5000·t … 5000·t + 4999`
    of the node rows and of the neighbourhood means, the weights and the bias whole. -/
theorem flushed0 (c : Dev nD) (t : Fin cfg0.N) :
    (dat0 V c).flushed 5 t = ((cfg0.win 5).blk t).view.read (Elt Ideal)
      (sage (V c main_arg0) (V c main_v22) (V c main_arg1) (V c main_arg3) (V c main_v23)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts0 t
  have hN : cfg0.N = 20 := N_0
  have ht : t.val < 20 := by have := t.isLt; omega
  funext j
  obtain ⟨p, q, rfl⟩ : ∃ (p : Fin 5000) (q : Fin 64), j = ix2 p q := ⟨j 0, j 1, eq_ix2 j⟩
  have hp : p.val < 5000 := p.isLt
  let r : Fin 100000 := ⟨t.val * 5000 + p.val, by omega⟩
  show k0_pay1 (iblk0 V c 0 t) (iblk0 V c 1 t) (iblk0 V c 2 t) (iblk0 V c 4 t) (iblk0 V c 3 t) (ix2 p q)
    = sage (V c main_arg0) (V c main_v22) (V c main_arg1) (V c main_arg3) (V c main_v23) (((cfg0.win 5).blk t).view.emb (ix2 p q))
  have hemb : ((cfg0.win 5).blk t).view.emb (ix2 p q) = ix2 r q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  rw [hemb]
  refine (pay0_at (iblk0 V c 0 t) (iblk0 V c 1 t) (iblk0 V c 2 t) (iblk0 V c 4 t) (iblk0 V c 3 t) p q).trans ?_
  show _ = sageRow (fun k => V c main_v22 (ix2 r k)) (fun k => V c main_arg0 (ix2 r k)) (V c main_arg1) (V c main_arg3) (V c main_v23 (ix2 0 q)) q
  have hA : (fun k : Fin 64 => iblk0 V c 1 t (ix2 p k)) = fun k => V c main_v22 (ix2 r k) := funext fun k => by
    show V c main_v22 (((cfg0.win 1).blk t).view.emb (ix2 p k)) = V c main_v22 (ix2 r k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  have hX : (fun k : Fin 64 => iblk0 V c 0 t (ix2 p k)) = fun k => V c main_arg0 (ix2 r k) := funext fun k => by
    show V c main_arg0 (((cfg0.win 0).blk t).view.emb (ix2 p k)) = V c main_arg0 (ix2 r k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  have hWl : (iblk0 V c 2 t : S64x64.Idx → EReal) = V c main_arg1 := funext fun y => by
    show V c main_arg1 (((cfg0.win 2).blk t).view.emb y) = V c main_arg1 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  have hWr : (iblk0 V c 4 t : S64x64.Idx → EReal) = V c main_arg3 := funext fun y => by
    show V c main_arg3 (((cfg0.win 4).blk t).view.emb y) = V c main_arg3 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  have hB : iblk0 V c 3 t (ix2 0 q) = V c main_v23 (ix2 0 q) := by
    show V c main_v23 (((cfg0.win 3).blk t).view.emb (ix2 0 q)) = V c main_v23 (ix2 0 q)
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * q.val = q.val; omega
  rw [hA, hX, hWl, hWr, hB]

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Row `r` of the output lies in the block of point `r / 5000`: the twenty blocks tile the array. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by omega⟩
  have htv : t.val = (i 0).val / 5000 := rfl
  obtain ⟨-, -, -, -, -, -, -, -, -, -, e50, e51⟩ := idx_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The region's output array after its twenty points: the layer of the arrays the region was entered with. -/
theorem final0 (c : Dev nD) : (dat0 V c).arrAt 5 cfg0.N
    = sage (V c main_arg0) (V c main_v22) (V c main_arg1) (V c main_arg3) (V c main_v23) :=
  (dat0 V c).arrAt_eq_of_cover 5 _ (fun t _ => flushed0 V c t) cover0

/-! ## Region 1: the second layer -/

/-- The printed index maps over the grid: the row windows (the node rows, the means, the output) sit at block `t` of the rows; the
    weights and the bias are whole at every point. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer over the arrays as the region finds them: rows `5000·t … 5000·t + 4999`
    of the node rows and of the neighbourhood means, the weights and the bias whole. -/
theorem flushed1 (c : Dev nD) (t : Fin cfg1.N) :
    (dat1 V c).flushed 5 t = ((cfg1.win 5).blk t).view.read (Elt Ideal)
      (sage (V c main_v24) (V c main_v43) (V c main_arg4) (V c main_arg6) (V c main_v44)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts1 t
  have hN : cfg1.N = 20 := N_1
  have ht : t.val < 20 := by have := t.isLt; omega
  funext j
  obtain ⟨p, q, rfl⟩ : ∃ (p : Fin 5000) (q : Fin 64), j = ix2 p q := ⟨j 0, j 1, eq_ix2 j⟩
  have hp : p.val < 5000 := p.isLt
  let r : Fin 100000 := ⟨t.val * 5000 + p.val, by omega⟩
  show k1_pay1 (iblk1 V c 0 t) (iblk1 V c 1 t) (iblk1 V c 2 t) (iblk1 V c 4 t) (iblk1 V c 3 t) (ix2 p q)
    = sage (V c main_v24) (V c main_v43) (V c main_arg4) (V c main_arg6) (V c main_v44) (((cfg1.win 5).blk t).view.emb (ix2 p q))
  have hemb : ((cfg1.win 5).blk t).view.emb (ix2 p q) = ix2 r q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  rw [hemb]
  refine (pay1_at (iblk1 V c 0 t) (iblk1 V c 1 t) (iblk1 V c 2 t) (iblk1 V c 4 t) (iblk1 V c 3 t) p q).trans ?_
  show _ = sageRow (fun k => V c main_v43 (ix2 r k)) (fun k => V c main_v24 (ix2 r k)) (V c main_arg4) (V c main_arg6) (V c main_v44 (ix2 0 q)) q
  have hA : (fun k : Fin 64 => iblk1 V c 1 t (ix2 p k)) = fun k => V c main_v43 (ix2 r k) := funext fun k => by
    show V c main_v43 (((cfg1.win 1).blk t).view.emb (ix2 p k)) = V c main_v43 (ix2 r k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  have hX : (fun k : Fin 64 => iblk1 V c 0 t (ix2 p k)) = fun k => V c main_v24 (ix2 r k) := funext fun k => by
    show V c main_v24 (((cfg1.win 0).blk t).view.emb (ix2 p k)) = V c main_v24 (ix2 r k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  have hWl : (iblk1 V c 2 t : S64x64.Idx → EReal) = V c main_arg4 := funext fun y => by
    show V c main_arg4 (((cfg1.win 2).blk t).view.emb y) = V c main_arg4 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have hWr : (iblk1 V c 4 t : S64x64.Idx → EReal) = V c main_arg6 := funext fun y => by
    show V c main_arg6 (((cfg1.win 4).blk t).view.emb y) = V c main_arg6 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  have hB : iblk1 V c 3 t (ix2 0 q) = V c main_v44 (ix2 0 q) := by
    show V c main_v44 (((cfg1.win 3).blk t).view.emb (ix2 0 q)) = V c main_v44 (ix2 0 q)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  rw [hA, hX, hWl, hWr, hB]

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Row `r` of the output lies in the block of point `r / 5000`: the twenty blocks tile the array. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by omega⟩
  have htv : t.val = (i 0).val / 5000 := rfl
  obtain ⟨-, -, -, -, -, -, -, -, -, -, e50, e51⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The region's output array after its twenty points: the layer of the arrays the region was entered with. -/
theorem final1 (c : Dev nD) : (dat1 V c).arrAt 5 cfg1.N
    = sage (V c main_v24) (V c main_v43) (V c main_arg4) (V c main_arg6) (V c main_v44) :=
  (dat1 V c).arrAt_eq_of_cover 5 _ (fun t _ => flushed1 V c t) cover1

/-! ## Region 2: the classifier head (one grid point, every window whole) -/

theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What the one point writes back is the head over the arrays as the region finds them. -/
theorem flushed2 (c : Dev nD) (t : Fin cfg2.N) :
    (dat2 V c).flushed 3 t = ((cfg2.win 3).blk t).view.read (Elt Ideal)
      (head (V c main_v57) (V c main_arg7) (V c main_v58)) := by
  show (cfg2.win 3).cut (grid2.coords t) ((dat2 V c).after 3 t) = _
  rw [after2_3]
  unfold out2_3
  rw [View.canon_unit_zero hz]
  simp only [View.ld_unit_zero (S := S512x64) hz, View.ld_unit_zero (S := S16x64) hz, View.ld_unit_zero (S := S1x16) hz]
  obtain ⟨e00, e01, e10, e11, e20, e21, e30, e31⟩ := idx_facts2 t
  funext j
  obtain ⟨p, q, rfl⟩ : ∃ (p : Fin 512) (q : Fin 16), j = ix2 p q := ⟨j 0, j 1, eq_ix2 j⟩
  show k2_pay1 (iblk2 V c 0 t) (iblk2 V c 1 t) (iblk2 V c 2 t) (ix2 p q)
    = head (V c main_v57) (V c main_arg7) (V c main_v58) (((cfg2.win 3).blk t).view.emb (ix2 p q))
  have hemb : ((cfg2.win 3).blk t).view.emb (ix2 p q) = ix2 p q := by
    funext a; apply Fin.ext
    match a with
    | ⟨0, _⟩ => show win2_3.index t (0 : Fin 2) * 512 + 1 * p.val = p.val; omega
    | ⟨1, _⟩ => show win2_3.index t (1 : Fin 2) * 16 + 1 * q.val = q.val; omega
  rw [hemb]
  refine (pay2_at (iblk2 V c 0 t) (iblk2 V c 1 t) (iblk2 V c 2 t) p q).trans ?_
  show _ = lsmRow (logit (fun k => V c main_v57 (ix2 p k)) (V c main_arg7) (V c main_v58)) q
  have hP : (fun k : Fin 64 => iblk2 V c 0 t (ix2 p k)) = fun k => V c main_v57 (ix2 p k) := funext fun k => by
    show V c main_v57 (((cfg2.win 0).blk t).view.emb (ix2 p k)) = V c main_v57 (ix2 p k)
    refine congrArg _ (funext fun a => Fin.ext ?_)
    match a with
    | ⟨0, _⟩ => show win2_0.index t (0 : Fin 2) * 512 + 1 * p.val = p.val; omega
    | ⟨1, _⟩ => show win2_0.index t (1 : Fin 2) * 64 + 1 * k.val = k.val; omega
  have hW : (iblk2 V c 1 t : S16x64.Idx → EReal) = V c main_arg7 := funext fun y => by
    show V c main_arg7 (((cfg2.win 1).blk t).view.emb y) = V c main_arg7 y
    refine congrArg _ (funext fun a => Fin.ext ?_)
    match a with
    | ⟨0, _⟩ => show win2_1.index t (0 : Fin 2) * 16 + 1 * (y 0).val = (y 0).val; omega
    | ⟨1, _⟩ => show win2_1.index t (1 : Fin 2) * 64 + 1 * (y 1).val = (y 1).val; omega
  have hB : (iblk2 V c 2 t : S1x16.Idx → EReal) = V c main_v58 := funext fun y => by
    show V c main_v58 (((cfg2.win 2).blk t).view.emb y) = V c main_v58 y
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 16 + 1 * (y 1).val = (y 1).val; omega
  rw [hP, hW, hB]

theorem mem_blk2 (t : Fin cfg2.N) (i : S512x16.Idx) :
    i ∈ ((cfg2.win 3).blk t).view.set ↔ ∀ a : Fin 2, win2_3.index t a * S512x16.size a ≤ (i a).val ∧ (i a).val < win2_3.index t a * S512x16.size a + S512x16.size a := by
  show i ∈ ((View.whole main_v59).slice (win2_3.rect t)).set ↔ _
  rw [View.set_slice_whole, Rect.mem_set_unit]
  exact Iff.rfl

/-- The one block is the whole output. -/
theorem cover2 (i : S512x16.Idx) : ∃ t : Fin cfg2.N, (cfg2.win 3).flush t = true ∧ i ∈ ((cfg2.win 3).blk t).view.set := by
  have hi0 : (i 0).val < 512 := (i 0).isLt
  have hi1 : (i 1).val < 16 := (i 1).isLt
  obtain ⟨-, -, -, -, -, -, e30, e31⟩ := idx_facts2 t2_0
  refine ⟨t2_0, flush2_3 t2_0, ?_⟩
  rw [mem_blk2]
  intro a
  match a with
  | ⟨0, _⟩ => show win2_3.index t2_0 (0 : Fin 2) * 512 ≤ (i 0).val ∧ (i 0).val < win2_3.index t2_0 (0 : Fin 2) * 512 + 512; omega
  | ⟨1, _⟩ => show win2_3.index t2_0 (1 : Fin 2) * 16 ≤ (i 1).val ∧ (i 1).val < win2_3.index t2_0 (1 : Fin 2) * 16 + 16; omega

/-- The head's output array after the region: log-softmax of the logits of the arrays the region was entered with. -/
theorem final2 (c : Dev nD) : (dat2 V c).arrAt 3 cfg2.N = head (V c main_v57) (V c main_arg7) (V c main_v58) :=
  (dat2 V c).arrAt_eq_of_cover 3 _ (fun t _ => flushed2 V c t) cover2

end Cert.KernelIdeal.Blocks
end
-- ==== Proof.RefValue.lean ====
/-
  The reference, stage by stage, is the same three functions.  Its layer is  relu( (aggr·Wlᵀ + b) + x·Wrᵀ ):  each `dot_general`
  against a transposed weight is, at `(r, q)`, the sum over k of the row entry times W[q,k]; the bias is spread over the rows; the
  clamp is the maximum with 0 — entry by entry the layer function, whatever the arrays `x` and `aggr` are (the gather and the
  scatter-adds that produce the mean are never opened).  Its head is log_softmax of the logits: the row maximum is a reduce from −∞
  (joined once more with −∞, which changes nothing), the sum of exponentials a reduce from 0.
-/
import proofs.«141392_j42563125904013_1_alg».proof.Proof.RefRead
import proofs.«141392_j42563125904013_1_alg».proof.Proof.Layer

set_option maxRecDepth 16384

noncomputable section

namespace Cert.ReferenceIdeal.RefValue

open Cert.ReferenceIdeal Cert.ReferenceIdeal.Gen Cert.ReferenceIdeal.ReadP Cert.KernelIdeal.Layer
open Idealize.ShloMosaic Idealize.ShloMosaic.TcCoe Idealize.ShloMosaic.ValueIdx

/-- The bias, recast as a one-row matrix, read at `(0, q)`. -/
theorem bias64 (b : FVec Ideal S64 .f32) (h : S64.ShapeCasts S1x64) (q : Fin 64) :
    shapeCast S1x64 b h (ix2 0 q) = b (ix1 q) :=
  shapeCast_apply b h (ix2 0 q) (ix1 q) (by
    rw [Shape.rowMajor_val_one, Shape.rowMajor_val_two]; show (q : ℕ) = 0 * 64 + q; omega)

/-- The reference's layer — two `dot_general`s against transposed weights, the bias spread over the rows, the sum clamped at 0 —
    is the layer function, whatever the node rows `x` and the neighbourhood means `a` are. -/
theorem layer_eq (x a : FVec Ideal S100000x64 .f32) (wl wr : FVec Ideal S64x64 .f32) (b : FVec Ideal S64 .f32)
    (h : S64.ShapeCasts S1x64) :
    (maximumf (F := Ideal) (addf (F := Ideal) (addf (F := Ideal) (val_main_v29 (F := Ideal) a wl) (val_main_v26 (F := Ideal) b)) (val_main_v29 (F := Ideal) x wr))
      (val_main_call0_v0 (F := Ideal)) : FVec Ideal S100000x64 .f32)
      = sage x a wl wr (shapeCast S1x64 b h) := by
  funext i
  obtain ⟨r, q, rfl⟩ : ∃ (r : Fin 100000) (q : Fin 64), i = ix2 r q := ⟨i 0, i 1, eq_ix2 i⟩
  show max ((val_main_v29 (F := Ideal) a wl (ix2 r q) + val_main_v26 (F := Ideal) b (ix2 r q)) + val_main_v29 (F := Ideal) x wr (ix2 r q))
      (val_main_call0_v0 (F := Ideal) (ix2 r q)) = _
  rw [val_main_v29_apply, val_main_v29_apply, val_main_v26_apply, val_main_v25_apply, val_main_call0_v0_apply, val_main_call0_cst_apply]
  simp only [val_main_v28_apply]
  unfold sage sageAt sageRow
  rw [bias64]
  have e1 : ∀ k : Fin 64, lidx_main_v29 (ix2 r q) k = ix2 r k := fun k => funext fun a => Fin.ext (by
    match a with
    | ⟨0, _⟩ => rfl
    | ⟨1, _⟩ => rfl)
  have e2 : ∀ k : Fin 64, idx_main_v28 (ridx_main_v29 (ix2 r q) k) = ix2 q k := fun k => funext fun a => Fin.ext (by
    match a with
    | ⟨0, _⟩ => rfl
    | ⟨1, _⟩ => rfl)
  have e3 : idx_main_v25 (idx_main_v26 (ix2 r q)) = ix1 q := funext fun a => Fin.ext (by
    match a with
    | ⟨0, _⟩ => rfl)
  simp only [e1, e2, e3]
  rfl

/-! ## The head -/

theorem bias16 (b : FVec Ideal S16 .f32) (h : S16.ShapeCasts S1x16) (q : Fin 16) :
    shapeCast S1x16 b h (ix2 0 q) = b (ix1 q) :=
  shapeCast_apply b h (ix2 0 q) (ix1 q) (by
    rw [Shape.rowMajor_val_one, Shape.rowMajor_val_two]; show (q : ℕ) = 0 * 16 + q; omega)

theorem lift512 (h : S512x16.Reduces [1] S512) (p : Fin 512) (k : Fin (S512x16.size 1)) :
    h.lift (ix1 p) k = ix2 p (⟨k.val, k.isLt⟩ : Fin 16) := by
  funext c; apply Fin.ext
  fin_cases c <;> rfl

section
variable (x0 : FVec Ideal S100000x64 .f32) (x1 : FVec Ideal S64x64 .f32) (x2 : FVec Ideal S64 .f32) (x3 x4 : FVec Ideal S64x64 .f32) (x5 : FVec Ideal S64 .f32) (x6 : FVec Ideal S64x64 .f32) (x7 : FVec Ideal S16x64 .f32) (x8 : FVec Ideal S16 .f32) (x9 : IVec S2x1600000 32) (x10 : IVec S100000 32)

/-- The reference's logits at `(p, q)`: the pooled row against row `q` of the weights, plus the bias. -/
theorem logits_at (h : S16.ShapeCasts S1x16) (p : Fin 512) (q : Fin 16) :
    val_main_v80 (F := Ideal) x0 x1 x2 x3 x4 x5 x6 x7 x8 x9 x10 (ix2 p q)
      = logit (fun k => val_main_v75 (F := Ideal) x0 x1 x2 x3 x4 x5 x6 x9 x10 (ix2 p k)) x7 (shapeCast S1x16 x8 h) q := by
  rw [val_main_v80_apply, val_main_v77_apply, val_main_v79_apply, val_main_v78_apply]
  simp only [val_main_v76_apply]
  unfold logit
  rw [bias16]
  have e1 : ∀ k : Fin 64, lidx_main_v77 (ix2 p q) k = ix2 p k := fun k => funext fun a => Fin.ext (by
    match a with
    | ⟨0, _⟩ => rfl
    | ⟨1, _⟩ => rfl)
  have e2 : ∀ k : Fin 64, idx_main_v76 (ridx_main_v77 (ix2 p q) k) = ix2 q k := fun k => funext fun a => Fin.ext (by
    match a with
    | ⟨0, _⟩ => rfl
    | ⟨1, _⟩ => rfl)
  have e3 : idx_main_v78 (idx_main_v79 (ix2 p q)) = ix1 q := funext fun a => Fin.ext (by
    match a with
    | ⟨0, _⟩ => rfl)
  simp only [e1, e2, e3]
  rfl

/-- The reference's row maximum: the reduce from −∞, joined once more with −∞, is the fold of `max` over the row. -/
theorem max_at (p : Fin 512) :
    val_main_call2_v2 (F := Ideal) x0 x1 x2 x3 x4 x5 x6 x7 x8 x9 x10 (ix1 p) = rowMax fun k => val_main_v80 (F := Ideal) x0 x1 x2 x3 x4 x5 x6 x7 x8 x9 x10 (ix2 p k) := by
  rw [val_main_call2_v2_apply, val_main_call2_v1_apply, val_main_call2_cst_0_apply]
  unfold val_main_call2_v0
  have hr : S512x16.Reduces [1] S512 := by decide
  rw [Host.reduce_eq_fold_single FloatOps.maximumf _ _ reducesTo_S512x16_S512_d1 hr h_S_]
  have hf : (val_main_v80 (F := Ideal) x0 x1 x2 x3 x4 x5 x6 x7 x8 x9 x10 ∘ hr.lift (ix1 p)) = fun k : Fin 16 => val_main_v80 (F := Ideal) x0 x1 x2 x3 x4 x5 x6 x7 x8 x9 x10 (ix2 p k) :=
    funext fun k => congrArg (val_main_v80 (F := Ideal) x0 x1 x2 x3 x4 x5 x6 x7 x8 x9 x10) (lift512 hr p k)
  show max ninfE ((Finset.univ : Finset (Fin 16)).fold max ninfE (val_main_v80 (F := Ideal) x0 x1 x2 x3 x4 x5 x6 x7 x8 x9 x10 ∘ hr.lift (ix1 p))) = _
  rw [hf]
  exact max_eq_right ((Finset.le_fold_max _).mpr (Or.inl le_rfl))

/-- The reference's last stage — `log_softmax` of the logits — is the head function of the pooled rows. -/
theorem head_eq (h : S16.ShapeCasts S1x16) :
    val_main_v81 (F := Ideal) x0 x1 x2 x3 x4 x5 x6 x7 x8 x9 x10 = head (val_main_v75 (F := Ideal) x0 x1 x2 x3 x4 x5 x6 x9 x10) x7 (shapeCast S1x16 x8 h) := by
  funext i
  obtain ⟨p, q, rfl⟩ : ∃ (p : Fin 512) (q : Fin 16), i = ix2 p q := ⟨i 0, i 1, eq_ix2 i⟩
  rw [val_main_v81_apply, val_main_call2_v5_apply, val_main_call2_v10_apply, val_main_call2_v9_apply, val_main_call2_v8_apply,
    val_main_call2_v7_apply, val_main_call2_cst_1_apply, val_main_call2_v4_apply, val_main_call2_v3_apply]
  have i1 : ∀ q' : Fin 16, idx_main_call2_v3 (idx_main_call2_v4 (ix2 p q')) = ix1 p := fun q' => funext fun a => Fin.ext (by
    match a with
    | ⟨0, _⟩ => rfl)
  have i2 : ∀ k : Fin 16, idx_main_call2_v7 (idx_main_call2_v8 (idx_main_call2_v10 (ix2 p q))) k = ix2 p k := fun k => funext fun a => Fin.ext (by
    match a with
    | ⟨0, _⟩ => rfl
    | ⟨1, _⟩ => rfl)
  have hl : (fun k : Fin 16 => val_main_v80 (F := Ideal) x0 x1 x2 x3 x4 x5 x6 x7 x8 x9 x10 (ix2 p k))
      = logit (fun k => val_main_v75 (F := Ideal) x0 x1 x2 x3 x4 x5 x6 x9 x10 (ix2 p k)) x7 (shapeCast S1x16 x8 h) :=
    funext fun k => logits_at x0 x1 x2 x3 x4 x5 x6 x7 x8 x9 x10 h p k
  have hv6 : ∀ k : Fin 16, val_main_call2_v6 (F := Ideal) x0 x1 x2 x3 x4 x5 x6 x7 x8 x9 x10 (ix2 p k)
      = Ideal.exp (val_main_v80 (F := Ideal) x0 x1 x2 x3 x4 x5 x6 x7 x8 x9 x10 (ix2 p k) - rowMax fun k => val_main_v80 (F := Ideal) x0 x1 x2 x3 x4 x5 x6 x7 x8 x9 x10 (ix2 p k)) := fun k => by
    rw [val_main_call2_v6_apply, val_main_call2_v5_apply, val_main_call2_v4_apply, val_main_call2_v3_apply, i1 k, max_at]
    simp only [Ideal.hostUnary_exp_def, Ideal.subf_def]
  simp only [i1, i2, hv6]
  rw [max_at]
  simp only [Ideal.subf_def, Ideal.hostUnary_log_def, Ideal.ofBits_def, Ideal.ofBits_zero_f32, zero_add]
  unfold head lsmRow
  rw [← hl]
end

/-! ## The two layers of the reference, by their stage names -/

section
variable (x0 : FVec Ideal S100000x64 .f32) (x1 : FVec Ideal S64x64 .f32) (x2 : FVec Ideal S64 .f32) (x3 x4 : FVec Ideal S64x64 .f32) (x5 : FVec Ideal S64 .f32) (x6 : FVec Ideal S64x64 .f32) (x7 : FVec Ideal S16x64 .f32) (x8 : FVec Ideal S16 .f32) (x9 : IVec S2x1600000 32) (x10 : IVec S100000 32)

/-- The reference's first hidden array is the layer of the inputs and of its own neighbourhood mean of them. -/
theorem layer1_eq (h : S64.ShapeCasts S1x64) :
    val_main_v31 (F := Ideal) x0 x1 x2 x3 x9
      = sage x0 (val_main_v22 (F := Ideal) x0 x9) x1 x3 (shapeCast S1x64 x2 h) :=
  layer_eq x0 (val_main_v22 (F := Ideal) x0 x9) x1 x3 x2 h

/-- The reference's second hidden array is the layer of the first and of the neighbourhood mean of the first. -/
theorem layer2_eq (h : S64.ShapeCasts S1x64) :
    val_main_v63 (F := Ideal) x0 x1 x2 x3 x4 x5 x6 x9
      = sage (val_main_v31 (F := Ideal) x0 x1 x2 x3 x9) (val_main_v54 (F := Ideal) x0 x1 x2 x3 x9) x4 x6 (shapeCast S1x64 x5 h) :=
  layer_eq (val_main_v31 (F := Ideal) x0 x1 x2 x3 x9) (val_main_v54 (F := Ideal) x0 x1 x2 x3 x9) x4 x6 x5 h
end

end Cert.ReferenceIdeal.RefValue
end
-- ==== Proof.Glue.lean ====
/-
  The host side of the kernel's @main, boundary by boundary.  Between the pallas_calls the kernel's host operations are the
  reference's own: the neighbourhood mean (gather the source rows, scatter-add them at the destinations, divide by the clamped
  in-degree) and the per-graph mean pool.  So each boundary's contents are the reference's stages of the same arguments — the
  host stretches by reading their operations back, the three regions by their whole-array functions — and the result buffer ends at
  the reference's last stage.
-/
import proofs.«141392_j42563125904013_1_alg».proof.Proof.Blocks
import proofs.«141392_j42563125904013_1_alg».proof.Proof.RefValue
import Idealize.ShloMosaic.Lib.StableHlo.Run

set_option maxRecDepth 200000

noncomputable section

namespace Cert.KernelIdeal.Glue

open Cert.KernelIdeal Cert.KernelIdeal.Gen Cert.KernelIdeal.Layer Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first layer -/

theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem W1_arg1 (c : Dev nD) : W1 m ρ c (Proc.devRef .tc main_arg1) = (m ((c : Thread nD τ).loc main_arg1)) := by
  show StableHlo.after hostOps0 (W0 m ρ c) (Proc.devRef .tc main_arg1) = _
  after_results_simp <;> rfl

theorem W1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl

theorem W1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl

theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl

theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl

theorem W1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

theorem W1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl

theorem W1_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl

/-- The sources' and the destinations' node numbers, as the first stretch leaves them for the second. -/
theorem W1_v1 (c : Dev nD) : W1 m ρ c (Proc.devRef .tc main_v1) = Cert.ReferenceIdeal.ReadP.val_main_v1 (F := Ideal) (m ((c : Thread nD τ).loc main_arg9)) := by
  show StableHlo.after hostOps0 (W0 m ρ c) (Proc.devRef .tc main_v1) = _
  after_results_simp <;> rfl
theorem W1_v3 (c : Dev nD) : W1 m ρ c (Proc.devRef .tc main_v3) = Cert.ReferenceIdeal.ReadP.val_main_v3 (F := Ideal) (m ((c : Thread nD τ).loc main_arg9)) := by
  show StableHlo.after hostOps0 (W0 m ρ c) (Proc.devRef .tc main_v3) = _
  after_results_simp <;> rfl
/-- The neighbourhood mean of the inputs. -/
theorem W1_v22 (c : Dev nD) : W1 m ρ c (Proc.devRef .tc main_v22) = Cert.ReferenceIdeal.ReadP.val_main_v22 (F := Ideal) (m ((c : Thread nD τ).loc main_arg0)) (m ((c : Thread nD τ).loc main_arg9)) := by
  show StableHlo.after hostOps0 (W0 m ρ c) (Proc.devRef .tc main_v22) = _
  after_results_simp <;> rfl
theorem W1_v23 (c : Dev nD) : W1 m ρ c (Proc.devRef .tc main_v23) = shapeCast S1x64 (m ((c : Thread nD τ).loc main_arg2)) shapeCasts_S64_S1x64 := by
  show StableHlo.after hostOps0 (W0 m ρ c) (Proc.devRef .tc main_v23) = _
  after_results_simp <;> rfl

/-! ## After the first layer -/

/-- The first pallas_call leaves the reference's first hidden array. -/
theorem W2_v24 (c : Dev nD) : W2 m ρ c (Proc.devRef .tc main_v24) = Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg9)) := by
  refine (W2_arr m ρ c 5).trans ?_
  rw [Blocks.final0]
  show sage (W1 m ρ c (Proc.devRef .tc main_arg0)) (W1 m ρ c (Proc.devRef .tc main_v22)) (W1 m ρ c (Proc.devRef .tc main_arg1))
    (W1 m ρ c (Proc.devRef .tc main_arg3)) (W1 m ρ c (Proc.devRef .tc main_v23)) = _
  rw [W1_arg0, W1_v22, W1_arg1, W1_arg3, W1_v23]
  exact (Cert.ReferenceIdeal.RefValue.layer1_eq (m ((c : Thread nD τ).loc main_arg0)) (m ((c : Thread nD τ).loc main_arg1)) (m ((c : Thread nD τ).loc main_arg2)) (m ((c : Thread nD τ).loc main_arg3)) (m ((c : Thread nD τ).loc main_arg9)) shapeCasts_S64_S1x64).symm
theorem W2_v1 (c : Dev nD) : W2 m ρ c (Proc.devRef .tc main_v1) = Cert.ReferenceIdeal.ReadP.val_main_v1 (F := Ideal) (m ((c : Thread nD τ).loc main_arg9)) :=
  (W2_of_ne m ρ c main_v1 (by decide)).trans (W1_v1 m ρ c)
theorem W2_v3 (c : Dev nD) : W2 m ρ c (Proc.devRef .tc main_v3) = Cert.ReferenceIdeal.ReadP.val_main_v3 (F := Ideal) (m ((c : Thread nD τ).loc main_arg9)) :=
  (W2_of_ne m ρ c main_v3 (by decide)).trans (W1_v3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg10 (c : Dev nD) : W2 m ρ c (Proc.devRef .tc main_arg10) = (m ((c : Thread nD τ).loc main_arg10)) :=
  (W2_of_ne m ρ c main_arg10 (by decide)).trans (W1_arg10 m ρ c)

/-! ## Before the second layer -/
theorem W3_arg4 (c : Dev nD) : W3 m ρ c (Proc.devRef .tc main_arg4) = (m ((c : Thread nD τ).loc main_arg4)) := by
  show StableHlo.after hostOps1 (W2 m ρ c) (Proc.devRef .tc main_arg4) = _
  after_results_simp
  exact W2_arg4 m ρ c
theorem W3_arg5 (c : Dev nD) : W3 m ρ c (Proc.devRef .tc main_arg5) = (m ((c : Thread nD τ).loc main_arg5)) := by
  show StableHlo.after hostOps1 (W2 m ρ c) (Proc.devRef .tc main_arg5) = _
  after_results_simp
  exact W2_arg5 m ρ c
theorem W3_arg6 (c : Dev nD) : W3 m ρ c (Proc.devRef .tc main_arg6) = (m ((c : Thread nD τ).loc main_arg6)) := by
  show StableHlo.after hostOps1 (W2 m ρ c) (Proc.devRef .tc main_arg6) = _
  after_results_simp
  exact W2_arg6 m ρ c
theorem W3_arg7 (c : Dev nD) : W3 m ρ c (Proc.devRef .tc main_arg7) = (m ((c : Thread nD τ).loc main_arg7)) := by
  show StableHlo.after hostOps1 (W2 m ρ c) (Proc.devRef .tc main_arg7) = _
  after_results_simp
  exact W2_arg7 m ρ c
theorem W3_arg8 (c : Dev nD) : W3 m ρ c (Proc.devRef .tc main_arg8) = (m ((c : Thread nD τ).loc main_arg8)) := by
  show StableHlo.after hostOps1 (W2 m ρ c) (Proc.devRef .tc main_arg8) = _
  after_results_simp
  exact W2_arg8 m ρ c
theorem W3_arg10 (c : Dev nD) : W3 m ρ c (Proc.devRef .tc main_arg10) = (m ((c : Thread nD τ).loc main_arg10)) := by
  show StableHlo.after hostOps1 (W2 m ρ c) (Proc.devRef .tc main_arg10) = _
  after_results_simp
  exact W2_arg10 m ρ c
theorem W3_v24 (c : Dev nD) : W3 m ρ c (Proc.devRef .tc main_v24) = Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg9)) := by
  show StableHlo.after hostOps1 (W2 m ρ c) (Proc.devRef .tc main_v24) = _
  after_results_simp
  exact W2_v24 m ρ c
/-- The neighbourhood mean of the first hidden array. -/
theorem W3_v43 (c : Dev nD) : W3 m ρ c (Proc.devRef .tc main_v43) = Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg9)) := by
  show StableHlo.after hostOps1 (W2 m ρ c) (Proc.devRef .tc main_v43) = _
  after_results_simp
  rw [W2_v24, W2_v1, W2_v3]
  rfl
theorem W3_v44 (c : Dev nD) : W3 m ρ c (Proc.devRef .tc main_v44) = shapeCast S1x64 (m ((c : Thread nD τ).loc main_arg5)) shapeCasts_S64_S1x64 := by
  show StableHlo.after hostOps1 (W2 m ρ c) (Proc.devRef .tc main_v44) = _
  after_results_simp
  rw [W2_arg5]
  rfl

/-! ## After the second layer -/

/-- The second pallas_call leaves the reference's second hidden array. -/
theorem W4_v45 (c : Dev nD) : W4 m ρ c (Proc.devRef .tc main_v45) = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) := by
  refine (W4_arr m ρ c 5).trans ?_
  rw [Blocks.final1]
  show sage (W3 m ρ c (Proc.devRef .tc main_v24)) (W3 m ρ c (Proc.devRef .tc main_v43)) (W3 m ρ c (Proc.devRef .tc main_arg4))
    (W3 m ρ c (Proc.devRef .tc main_arg6)) (W3 m ρ c (Proc.devRef .tc main_v44)) = _
  rw [W3_v24, W3_v43, W3_arg4, W3_arg6, W3_v44]
  exact (Cert.ReferenceIdeal.RefValue.layer2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) shapeCasts_S64_S1x64).symm
theorem W4_arg7 (c : Dev nD) : W4 m ρ c (Proc.devRef .tc main_arg7) = (m ((c : Thread nD τ).loc main_arg7)) :=
  (W4_of_ne m ρ c main_arg7 (by decide)).trans (W3_arg7 m ρ c)
theorem W4_arg8 (c : Dev nD) : W4 m ρ c (Proc.devRef .tc main_arg8) = (m ((c : Thread nD τ).loc main_arg8)) :=
  (W4_of_ne m ρ c main_arg8 (by decide)).trans (W3_arg8 m ρ c)
theorem W4_arg10 (c : Dev nD) : W4 m ρ c (Proc.devRef .tc main_arg10) = (m ((c : Thread nD τ).loc main_arg10)) :=
  (W4_of_ne m ρ c main_arg10 (by decide)).trans (W3_arg10 m ρ c)

/-! ## Before the head -/

theorem W5_arg7 (c : Dev nD) : W5 m ρ c (Proc.devRef .tc main_arg7) = (m ((c : Thread nD τ).loc main_arg7)) := by
  show StableHlo.after hostOps2 (W4 m ρ c) (Proc.devRef .tc main_arg7) = _
  after_results_simp
  exact W4_arg7 m ρ c
/-- The per-graph mean of the second hidden array. -/
theorem W5_v57 (c : Dev nD) : W5 m ρ c (Proc.devRef .tc main_v57) = Cert.ReferenceIdeal.ReadP.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) := by
  show StableHlo.after hostOps2 (W4 m ρ c) (Proc.devRef .tc main_v57) = _
  after_results_simp
  rw [W4_v45, W4_arg10]
  rfl
theorem W5_v58 (c : Dev nD) : W5 m ρ c (Proc.devRef .tc main_v58) = shapeCast S1x16 (m ((c : Thread nD τ).loc main_arg8)) shapeCasts_S16_S1x16 := by
  show StableHlo.after hostOps2 (W4 m ρ c) (Proc.devRef .tc main_v58) = _
  after_results_simp
  rw [W4_arg8]
  rfl

/-! ## The result -/

/-- The kernel's result buffer ends at the reference's last stage of the kernel's own arguments. -/
theorem W6_v59 (c : Dev nD) : W6 m ρ c (Proc.devRef .tc main_v59) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 3).trans ?_
  rw [Blocks.final2]
  show head (W5 m ρ c (Proc.devRef .tc main_v57)) (W5 m ρ c (Proc.devRef .tc main_arg7)) (W5 m ρ c (Proc.devRef .tc main_v58)) = _
  rw [W5_v57, W5_arg7, W5_v58]
  exact (Cert.ReferenceIdeal.RefValue.head_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) shapeCasts_S16_S1x16).symm

end Cert.KernelIdeal.Glue

end
-- ==== Proof.lean ====
/-
  Two GraphSAGE layers, a per-graph mean pool and a log-softmax classifier: a kernel whose three dense stages are pallas_calls
  against a plain jnp reference, equal as extended reals.

  Both programs compute, with the same gathers and scatter-adds on the host,
      h₁ = relu((mean(x)·W1lᵀ + b1) + x·W1rᵀ),   h₂ = relu((mean(h₁)·W2lᵀ + b2) + h₁·W2rᵀ),   out = log_softmax(pool(h₂)·fcWᵀ + fcb).
  The kernel forms each layer block by block (5000 rows at a time) with the matrix products accumulated from zero; the reference
  forms it with two `dot_general`s over all rows.  At the exact reals a matrix product from a zero accumulator is the plain sum over
  the contracted axis on both sides, the change of float format before the products is the identity, and the additions come in the
  same order, so every entry is literally the same expression; no law of the extended reals beyond 0 + s = s and max(−∞, y) = y is
  used, and the precondition is never opened.  The neighbourhood means and the pool are the same host operations in both programs
  and are carried along unopened.

  Modules:  Layer (the three bodies entry by entry),  Blocks (each call's output array as one function of its input arrays),
  KRun (the kernel's run with its result in the post),  RefRun / RefRead (the reference's run and its stages),  RefValue (the
  reference's stages are the same functions),  Glue (the kernel's boundaries are the reference's stages).
-/
import proofs.«141392_j42563125904013_1_alg».proof.Defs
import proofs.«141392_j42563125904013_1_alg».proof.Proof.Gen.Kernel
import proofs.«141392_j42563125904013_1_alg».proof.Proof.Gen.Kernel.Skeleton
import proofs.«141392_j42563125904013_1_alg».proof.Proof.Gen.Kernel.Launch
import proofs.«141392_j42563125904013_1_alg».proof.Proof.Gen.Kernel.Points
import proofs.«141392_j42563125904013_1_alg».proof.Proof.Gen.Kernel.Frame
import proofs.«141392_j42563125904013_1_alg».proof.Proof.Gen.KernelIdeal
import proofs.«141392_j42563125904013_1_alg».proof.Proof.Gen.KernelIdeal.Skeleton
import proofs.«141392_j42563125904013_1_alg».proof.Proof.Gen.KernelIdeal.Launch
import proofs.«141392_j42563125904013_1_alg».proof.Proof.Gen.KernelIdeal.Points
import proofs.«141392_j42563125904013_1_alg».proof.Proof.Gen.KernelIdeal.Frame
import proofs.«141392_j42563125904013_1_alg».proof.Proof.Gen.ReferenceIdeal
import proofs.«141392_j42563125904013_1_alg».proof.Proof.Gen.Pre_finite_inputs
import proofs.«141392_j42563125904013_1_alg».proof.Proof.KRun
import proofs.«141392_j42563125904013_1_alg».proof.Proof.Glue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the reference's last stage — log-softmax of the pooled second layer — of the same arguments. -/
theorem algebraic : Cert.algebraic_KernelIdeal_ReferenceIdeal := by
  intro m ρ m' ρ' _ hagree
  refine ⟨fun c => Cert.ReferenceIdeal.ReadP.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Glue.W6_v59 m ρ c), (h c).2⟩) (Cert.KernelIdeal.KRun.run_val m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.ReadP.val_main_v81_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
